-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  reduces_S512x64_S512 : S512x64.Reduces [1] S512
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048, .f32⟩
  | .hbm, ⟨10, _⟩ => ⟨S_, .f32⟩
  | .hbm, ⟨11, _⟩ => ⟨S2x16x2048, .f32⟩
  | .hbm, ⟨12, _⟩ => ⟨S2x16x2048, .f32⟩
  | .hbm, ⟨13, _⟩ => ⟨S2x16x2048x1, .f32⟩
  | .hbm, ⟨14, _⟩ => ⟨S2x16x2048x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x64, .f32⟩
  | .hbm, ⟨23, _⟩ => ⟨S2x16x2048x64, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x1, .f32⟩
  | .hbm, ⟨28, _⟩ => ⟨S_, .f32⟩
  | .hbm, ⟨29, _⟩ => ⟨S2x16x2048x1, .f32⟩
  | .hbm, ⟨30, _⟩ => ⟨S2x16x2048x1, .f32⟩
  | .hbm, ⟨31, _⟩ => ⟨S2x16x2048x64, .f32⟩
  | .hbm, ⟨32, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  reducesTo_S2x16x2048x64_S2x16x2048_d3 : S2x16x2048x64.ReducesTo [3] S2x16x2048
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibAttentionRows.lean ====
/-
  Rows of scaled dot-product attention on the extended reals, for any numbers of keys and features.

  For one query row q (d features) against n key rows k and n value rows v:
    * scoreScaled c q k j  = ∑ e, (q e * c) * k j e        (the scale folded into the query row first),
      scoreDivided σ q k j = (∑ e, q e * k j e) / σ        (the dot product divided afterwards);
    * weights s j = exp (s j - max s) / ∑ j', exp (s j' - max s)      (the softmax of a row of scores);
    * mix w v e   = ∑ j, w j * v j e                                   (the weights mixed over the value rows);
    * normed ε o e = o e / (sqrt (∑ e', o e' * o e') + ε)             (a row over its Euclidean norm plus ε);
    * headW sc q k r and headO sc ε q k v r: row r of a head's weights and of its preconditioned output, for any
      score function sc, with congruence lemmas in sc.
  scoreScaled_eq_scoreDivided: for REAL rows, c the f32 word of 1/8 and σ the ideal square root of the f32 word of 64,
  the two score forms are equal (a factor moved across a finite sum, which is false at the infinities). Also: the
  f32 words 0x3E000000 = 1/8 and 0x42800000 = 64, the ideal square root of 64, and the coercion of a finite real sum.
-/
import Idealize.ShloMosaic.PureOps.Ideal
import Idealize.ShloMosaic.PureOps.Ideal.Laws

noncomputable section

open scoped BigOperators

namespace Cert.LibAttentionRows

open Idealize.ShloMosaic

/-! ## One row -/

/-- The softmax weights of a row of scores, shifted by the row's largest score. -/
def weights {n : ℕ} (s : Fin n → EReal) (j : Fin n) : EReal :=
  Ideal.div (Ideal.exp (s j - Finset.univ.sup s)) (∑ j' : Fin n, Ideal.exp (s j' - Finset.univ.sup s))

/-- The weighted sum of the value rows. -/
def mix {n d : ℕ} (w : Fin n → EReal) (v : Fin n → Fin d → EReal) (e : Fin d) : EReal :=
  ∑ j : Fin n, w j * v j e

/-- A row divided by its Euclidean norm plus ε. -/
def normed {d : ℕ} (eps : EReal) (o : Fin d → EReal) (e : Fin d) : EReal :=
  Ideal.div (o e) (Ideal.sqrt (∑ e' : Fin d, o e' * o e') + eps)

/-- Scores with the scale folded into the query row first. -/
def scoreScaled {n d : ℕ} (c : EReal) (q : Fin d → EReal) (k : Fin n → Fin d → EReal) (j : Fin n) : EReal :=
  ∑ e : Fin d, (q e * c) * k j e

/-- Scores divided by σ after the dot product. -/
def scoreDivided {n d : ℕ} (σ : EReal) (q : Fin d → EReal) (k : Fin n → Fin d → EReal) (j : Fin n) : EReal :=
  Ideal.div (∑ e : Fin d, q e * k j e) σ

/-! ## The two constants -/

/-- The word 0x3E000000 (exponent 124, fraction zero) is 2^(-3) = 1/8. -/
theorem ofBits_eighth : Ideal.ofBits .f32 0x3E000000#32 = ((1 / 8 : ℝ) : EReal) := by
  simp [Ideal.ofBits, Ideal.ieee]
  rw [← EReal.coe_mul]
  norm_num

/-- The word 0x42800000 (exponent 133, fraction zero) is 2^6 = 64. -/
theorem ofBits_sixtyfour : Ideal.ofBits .f32 0x42800000#32 = ((64 : ℝ) : EReal) := by
  simp [Ideal.ofBits, Ideal.ieee]
  rw [← EReal.coe_mul]
  norm_num

/-- The ideal square root of 64 is 8. -/
theorem sqrt_sixtyfour : Ideal.sqrt ((64 : ℝ) : EReal) = ((8 : ℝ) : EReal) := by
  rw [Ideal.sqrt_coe, if_neg (by norm_num)]
  refine congrArg _ ?_
  rw [show (64 : ℝ) = 8 ^ 2 by norm_num, Real.sqrt_sq (by norm_num)]

/-! ## The law: the two score forms agree on real rows -/

/-- The coercion from the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real rows, scaling the query row by 1/8 before the dot product is dividing the dot product by sqrt 64. -/
theorem scoreScaled_eq_scoreDivided {n d : ℕ} (q : Fin d → EReal) (k : Fin n → Fin d → EReal)
    (hq : ∀ e, ∃ x : ℝ, q e = (x : EReal)) (hk : ∀ j e, ∃ x : ℝ, k j e = (x : EReal)) :
    scoreScaled (Ideal.ofBits .f32 0x3E000000#32) q k
      = scoreDivided (Ideal.sqrt (Ideal.ofBits .f32 0x42800000#32)) q k := by
  choose a ha using hq
  choose b hb using hk
  funext j
  unfold scoreScaled scoreDivided
  rw [ofBits_eighth, ofBits_sixtyfour, sqrt_sixtyfour, Ideal.div_coe (by norm_num : (8 : ℝ) ≠ 0)]
  have h1 : ∀ e, (q e * ((1 / 8 : ℝ) : EReal)) * k j e = ((a e * (1 / 8) * b j e : ℝ) : EReal) := fun e => by
    rw [ha e, hb j e, ← EReal.coe_mul, ← EReal.coe_mul]
  have h2 : ∀ e, q e * k j e = ((a e * b j e : ℝ) : EReal) := fun e => by
    rw [ha e, hb j e, ← EReal.coe_mul]
  rw [Finset.sum_congr rfl (fun e _ => h1 e), Finset.sum_congr rfl (fun e _ => h2 e), ← coe_sum, ← coe_sum,
    ← EReal.coe_mul]
  refine congrArg _ ?_
  rw [Finset.sum_mul]
  exact Finset.sum_congr rfl fun e _ => by ring

/-! ## One head: rows of queries against all keys and values -/

/-- Row r of the attention weights of a head: the softmax of the scores of query row r against every key row. -/
def headW {n d : ℕ} (sc : (Fin d → EReal) → (Fin n → Fin d → EReal) → Fin n → EReal)
    (q k : Fin n → Fin d → EReal) (r : Fin n) : Fin n → EReal :=
  weights (sc (q r) k)

/-- Row r of the head's output: the weights of row r mixed over the value rows, then divided by the row's norm plus ε. -/
def headO {n d : ℕ} (sc : (Fin d → EReal) → (Fin n → Fin d → EReal) → Fin n → EReal) (eps : EReal)
    (q k v : Fin n → Fin d → EReal) (r : Fin n) : Fin d → EReal :=
  normed eps (mix (headW sc q k r) v)

/-- If two score functions agree on the rows of q against k, the head's weights agree. -/
theorem headW_congr {n d : ℕ} {sc sc' : (Fin d → EReal) → (Fin n → Fin d → EReal) → Fin n → EReal}
    (q k : Fin n → Fin d → EReal) (h : ∀ r, sc (q r) k = sc' (q r) k) (r : Fin n) :
    headW sc q k r = headW sc' q k r := by
  unfold headW; rw [h r]

/-- and so do the head's outputs. -/
theorem headO_congr {n d : ℕ} {sc sc' : (Fin d → EReal) → (Fin n → Fin d → EReal) → Fin n → EReal} (eps : EReal)
    (q k v : Fin n → Fin d → EReal) (h : ∀ r, sc (q r) k = sc' (q r) k) (r : Fin n) :
    headO sc eps q k v r = headO sc' eps q k v r := by
  unfold headO; rw [headW_congr q k h r]

end Cert.LibAttentionRows

end
-- ==== Proof.AttnSpec.lean ====
/-
  Scaled dot-product attention with a row-norm preconditioner over whole arrays, in two layouts.

  The row functions (scores, softmax weights, mixed values, normalised row; the general module of attention rows) are
  laid over arrays of the shapes [2, 16, 2048, ·] (batch, head, row, ·) and [32, 2048, ·] (batch and head fused, row, ·).
  The two layouts are related through the row-major reshape: fusing batch and head, computing head by head and unfusing
  is computing head by head. On arrays of real numbers the result with the scores scaled first is the result with the
  scores divided afterwards: the only place where the two sides of the comparison differ, and the only place where
  finiteness of the inputs is used.
-/
import proofs.«112731_j62113817035127_2_alg».proof.Proof.LibAttentionRows
import Idealize.ShloMosaic.Lib.ValueIdx
import Idealize.ShloMosaic.Lib.Pipeline.Value

noncomputable section

open scoped BigOperators

namespace Cert.AttnSpec

open Idealize.ShloMosaic Idealize.ShloMosaic.ValueIdx Cert.LibAttentionRows

/-! ## The two layouts -/

/-- [batch, head, row, column]. -/
abbrev S4 (w : ℕ) : Shape := ⟨4, ![2, 16, 2048, w]⟩
/-- [batch and head fused, row, column]. -/
abbrev S3 (w : ℕ) : Shape := ⟨3, ![32, 2048, w]⟩

/-- The fused coordinate of batch b and head h in row-major order. -/
def fuse (b : Fin 2) (h : Fin 16) : Fin 32 := ⟨b.val * 16 + h.val, by omega⟩

/-- Every fused coordinate is the fusion of a batch and a head. -/
theorem exists_fuse (g : Fin 32) : ∃ (b : Fin 2) (h : Fin 16), g = fuse b h :=
  ⟨⟨g.val / 16, by omega⟩, ⟨g.val % 16, by omega⟩, Fin.ext (by show g.val = g.val / 16 * 16 + g.val % 16; omega)⟩

/-- The rows of head g of a fused array. -/
def rows3 {w : ℕ} (X : (S3 w).Idx → EReal) (g : Fin 32) : Fin 2048 → Fin w → EReal := fun r e => X (ix3 g r e)
/-- The rows of head (b, h) of an unfused array. -/
def rows4 {w : ℕ} (X : (S4 w).Idx → EReal) (b : Fin 2) (h : Fin 16) : Fin 2048 → Fin w → EReal :=
  fun r e => X (ix4 b h r e)

/-- Reading the fused reshape of an array at (fuse b h, r, e) reads the array at (b, h, r, e). -/
theorem reshape43_apply {α : Type} {w : ℕ} (X : (S4 w).Idx → α) (hc : (S4 w).ShapeCasts (S3 w))
    (b : Fin 2) (h : Fin 16) (r : Fin 2048) (e : Fin w) :
    shapeCast (S3 w) X hc (ix3 (fuse b h) r e) = X (ix4 b h r e) :=
  shapeCast_apply X hc _ _ (by rw [Shape.rowMajor_val_four, Shape.rowMajor_val_three]; rfl)

/-- Reading the unfused reshape of a fused array at (b, h, r, e) reads the array at (fuse b h, r, e). -/
theorem reshape34_apply {α : Type} {w : ℕ} (Y : (S3 w).Idx → α) (hc : (S3 w).ShapeCasts (S4 w))
    (b : Fin 2) (h : Fin 16) (r : Fin 2048) (e : Fin w) :
    shapeCast (S4 w) Y hc (ix4 b h r e) = Y (ix3 (fuse b h) r e) :=
  shapeCast_apply Y hc _ _ (by rw [Shape.rowMajor_val_four, Shape.rowMajor_val_three]; rfl)

/-- The rows of head (fuse b h) of the fused reshape are the rows of head (b, h). -/
theorem rows3_reshape {w : ℕ} (X : (S4 w).Idx → EReal) (hc : (S4 w).ShapeCasts (S3 w)) (b : Fin 2) (h : Fin 16) :
    rows3 (shapeCast (S3 w) X hc) (fuse b h) = rows4 X b h :=
  funext fun r => funext fun e => reshape43_apply X hc b h r e

/-- The attention weights over the fused layout. -/
def attn3 (sc : (Fin 64 → EReal) → (Fin 2048 → Fin 64 → EReal) → Fin 2048 → EReal)
    (Q K : (S3 64).Idx → EReal) : (S3 2048).Idx → EReal :=
  fun i => headW sc (rows3 Q (i 0)) (rows3 K (i 0)) (i 1) (i 2)

/-- The preconditioned output over the fused layout. -/
def out3 (sc : (Fin 64 → EReal) → (Fin 2048 → Fin 64 → EReal) → Fin 2048 → EReal) (eps : EReal)
    (Q K V : (S3 64).Idx → EReal) : (S3 64).Idx → EReal :=
  fun i => headO sc eps (rows3 Q (i 0)) (rows3 K (i 0)) (rows3 V (i 0)) (i 1) (i 2)

/-- The attention weights over the unfused layout. -/
def attn4 (sc : (Fin 64 → EReal) → (Fin 2048 → Fin 64 → EReal) → Fin 2048 → EReal)
    (Q K : (S4 64).Idx → EReal) : (S4 2048).Idx → EReal :=
  fun i => headW sc (rows4 Q (i 0) (i 1)) (rows4 K (i 0) (i 1)) (i 2) (i 3)

/-- The preconditioned output over the unfused layout. -/
def out4 (sc : (Fin 64 → EReal) → (Fin 2048 → Fin 64 → EReal) → Fin 2048 → EReal) (eps : EReal)
    (Q K V : (S4 64).Idx → EReal) : (S4 64).Idx → EReal :=
  fun i => headO sc eps (rows4 Q (i 0) (i 1)) (rows4 K (i 0) (i 1)) (rows4 V (i 0) (i 1)) (i 2) (i 3)

/-- Fusing batch and head, computing the weights head by head, and unfusing is computing them head by head. -/
theorem attn_reshape (sc : (Fin 64 → EReal) → (Fin 2048 → Fin 64 → EReal) → Fin 2048 → EReal)
    (Q K : (S4 64).Idx → EReal) (hc : (S4 64).ShapeCasts (S3 64)) (hc' : (S3 2048).ShapeCasts (S4 2048)) :
    shapeCast (S4 2048) (attn3 sc (shapeCast (S3 64) Q hc) (shapeCast (S3 64) K hc)) hc' = attn4 sc Q K := by
  funext i
  obtain ⟨b, h, r, j, rfl⟩ : ∃ (b : Fin 2) (h : Fin 16) (r : Fin 2048) (j : Fin 2048), i = ix4 b h r j :=
    ⟨i 0, i 1, i 2, i 3, eq_ix4 i⟩
  rw [reshape34_apply]
  show headW sc (rows3 (shapeCast (S3 64) Q hc) (fuse b h)) (rows3 (shapeCast (S3 64) K hc) (fuse b h)) r j
    = headW sc (rows4 Q b h) (rows4 K b h) r j
  rw [rows3_reshape, rows3_reshape]

/-- The same for the preconditioned output. -/
theorem out_reshape (sc : (Fin 64 → EReal) → (Fin 2048 → Fin 64 → EReal) → Fin 2048 → EReal) (eps : EReal)
    (Q K V : (S4 64).Idx → EReal) (hc : (S4 64).ShapeCasts (S3 64)) (hc' : (S3 64).ShapeCasts (S4 64)) :
    shapeCast (S4 64) (out3 sc eps (shapeCast (S3 64) Q hc) (shapeCast (S3 64) K hc) (shapeCast (S3 64) V hc)) hc'
      = out4 sc eps Q K V := by
  funext i
  obtain ⟨b, h, r, e, rfl⟩ : ∃ (b : Fin 2) (h : Fin 16) (r : Fin 2048) (e : Fin 64), i = ix4 b h r e :=
    ⟨i 0, i 1, i 2, i 3, eq_ix4 i⟩
  rw [reshape34_apply]
  show headO sc eps (rows3 (shapeCast (S3 64) Q hc) (fuse b h)) (rows3 (shapeCast (S3 64) K hc) (fuse b h))
      (rows3 (shapeCast (S3 64) V hc) (fuse b h)) r e
    = headO sc eps (rows4 Q b h) (rows4 K b h) (rows4 V b h) r e
  rw [rows3_reshape, rows3_reshape, rows3_reshape]

/-! ## The law over whole arrays -/

/-- On arrays of real numbers the weights computed with the scaled scores are those computed with the divided scores, -/
theorem attn4_scaled_eq_divided (Q K : (S4 64).Idx → EReal)
    (hQ : ∀ i, ∃ x : ℝ, Q i = (x : EReal)) (hK : ∀ i, ∃ x : ℝ, K i = (x : EReal)) :
    attn4 (scoreScaled (Ideal.ofBits .f32 0x3E000000#32)) Q K
      = attn4 (scoreDivided (Ideal.sqrt (Ideal.ofBits .f32 0x42800000#32))) Q K :=
  funext fun i => congrFun (headW_congr (rows4 Q (i 0) (i 1)) (rows4 K (i 0) (i 1))
    (fun r => scoreScaled_eq_scoreDivided (rows4 Q (i 0) (i 1) r) (rows4 K (i 0) (i 1)) (fun e => hQ _) (fun j e => hK _))
    (i 2)) (i 3)

/-- and so are the preconditioned outputs. -/
theorem out4_scaled_eq_divided (eps : EReal) (Q K V : (S4 64).Idx → EReal)
    (hQ : ∀ i, ∃ x : ℝ, Q i = (x : EReal)) (hK : ∀ i, ∃ x : ℝ, K i = (x : EReal)) :
    out4 (scoreScaled (Ideal.ofBits .f32 0x3E000000#32)) eps Q K V
      = out4 (scoreDivided (Ideal.sqrt (Ideal.ofBits .f32 0x42800000#32))) eps Q K V :=
  funext fun i => congrFun (headO_congr eps (rows4 Q (i 0) (i 1)) (rows4 K (i 0) (i 1)) (rows4 V (i 0) (i 1))
    (fun r => scoreScaled_eq_scoreDivided (rows4 Q (i 0) (i 1) r) (rows4 K (i 0) (i 1)) (fun e => hQ _) (fun j e => hK _))
    (i 2)) (i 3)

end Cert.AttnSpec

end
-- ==== Proof.LibFiniteInputs.lean ====
/-
  "Every entry is finite", read back at the ideal values.

  A precondition that an array holds finite numbers is printed as the reduction by "and", over every index and from the
  constant one, of the comparison |x| < +∞ of the array's entries against the broadcast f32 word of plus infinity. When
  that reduction (into the rank-zero shape) is one, every entry of the array is a real number:
    * a reduction by "and" into a single result that is one met a one at every index;
    * the comparison "ordered less than" is one only when the strict inequality holds;
    * an extended real whose absolute value max x (-x) lies strictly below the top element is neither infinity.
  Stated for an array of any shape; the f32 word 0x7F800000 is plus infinity.
-/
import Idealize.ShloMosaic.Lib.ReduceAll
import Idealize.ShloMosaic.Lib.ValueIdx
import Idealize.ShloMosaic.PureOps.Ideal

noncomputable section

namespace Cert.LibFiniteInputs

open Idealize.ShloMosaic

/-- The word 0x7F800000 (sign clear, exponent all ones, fraction zero) is plus infinity. -/
theorem ofBits_posInf : Ideal.ofBits .f32 0x7F800000#32 = (⊤ : EReal) := by
  simp [Ideal.ofBits, Ideal.ieee]

/-- An extended real whose absolute value compares strictly below plus infinity is a real number. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-- The rank-zero shape has one index. -/
instance : Subsingleton (⟨0, ![]⟩ : Shape).Idx := ⟨fun a b => funext fun d => d.elim0⟩

/-- One array's test: if the reduction by "and" of the comparisons |x| < +∞ is one, every entry is real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf a) (broadcastInDim s ![] hb (constant (F := Ideal) ⟨0, ![]⟩ .f32 0x7F800000#32)))
        (constantI ⟨0, ![]⟩ 1 1#1) hr hu ValueIdx.ix0 = 1#1) (i : s.Idx) :
    ∃ r : ℝ, a i = (r : EReal) :=
  real_of_abs_lt (a i) (Host.reduce_andi_all _ _ hr hu ValueIdx.ix0 h i)

end Cert.LibFiniteInputs

end
-- ==== Proof.Finite.lean ====
/-
  The precondition read back: when "every float input is finite" evaluates to all ones, every entry of the three
  argument arrays is a real number.

  The predicate is the conjunction of three tests, one per array, each the reduction by "and" over every index of the
  comparison |x| < +∞. A conjunction that is one has both conjuncts one, and each test that is one makes its array
  real-valued (the general module on finite inputs).
-/
import proofs.«112731_j62113817035127_2_alg».proof.Pre_finite_inputs
import proofs.«112731_j62113817035127_2_alg».proof.Proof.LibFiniteInputs
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs Cert.LibFiniteInputs

variable [Facts]
open Facts

/-- The whole precondition: every entry of each of the three arrays is real. -/
theorem inputs_real (a0 a1 a2 : FVec Ideal S2x16x2048x64 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨real_of_all a0 bcast_S_S2x16x2048x64 reducesTo_S2x16x2048x64_S_d0_1_2_3 h_S_ h0',
    real_of_all a1 bcast_S_S2x16x2048x64 reducesTo_S2x16x2048x64_S_d0_1_2_3 h_S_ h1,
    real_of_all a2 bcast_S_S2x16x2048x64 reducesTo_S2x16x2048x64_S_d0_1_2_3 h_S_ h2⟩

end Cert.Pre_finite_inputs.Finite

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«112731_j62113817035127_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.KernelPay.lean ====
/-
  What the kernel body stores, read at an index at the ideal values.

  The body loads a block of 512 query rows and all 2048 key rows and value rows of one head (each with a leading unit
  axis), and stores
    * the attention weights of the 512 rows: the softmax, along each row, of the scores (q r * 1/8) · k j, and
    * the 512 output rows: the weights mixed over the value rows, each row divided by its Euclidean norm plus ε.
  Each step of the body is named here as a function of arrays and read at an index: the scores (a product with the
  transpose of the keys into a zero accumulator), the row softmax (row maximum, exponential of the difference, row sum,
  quotient), the mixed values (a plain product into a zero accumulator) and the row normalisation. Changes of float
  format are the identity at the ideal values. The two stored values are these functions composed, by unfolding.
-/
import proofs.«112731_j62113817035127_2_alg».proof.Proof.Gen.KernelIdeal.Skeleton
import proofs.«112731_j62113817035127_2_alg».proof.Proof.LibRowReduceProducts
import proofs.«112731_j62113817035127_2_alg».proof.Proof.LibKeepdimsCols
import proofs.«112731_j62113817035127_2_alg».proof.Proof.LibAttentionRows
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.LibAttentionRows
open Cert.LibRowReduceProducts Cert.LibKeepdimsCols

/-! ## The steps of the body as functions of arrays -/

/-- The scores of the 512 query rows against the 2048 key rows, the scale folded into the queries. -/
def scoresV (x0 : Vec Ideal S1x512x64 .f32) (x1 : Vec Ideal S1x2048x64 .f32) : FVec Ideal S512x2048 .f32 :=
  matmul dot_S512x64_S2048x64_S512x2048_1_1_0_0_n_n none
    (truncf .bf16 (mulf (shapeCast S512x64 x0 shapeCasts_S1x512x64_S512x64)
      (broadcast S512x64 (Scalar.ofBits (F := Ideal) .f32 0x3E000000#32))) bitsLt_bf16_f32)
    (truncf .bf16 (shapeCast S2048x64 x1 shapeCasts_S1x2048x64_S2048x64) bitsLt_bf16_f32)
    (constant S512x2048 .f32 0x00000000#32)

/-- Each row's largest entry, repeated along the row. -/
def rowMaxV (s : FVec Ideal S512x2048 .f32) : FVec Ideal S512x2048 .f32 :=
  broadcastTo S512x2048
    (shapeCast S512x1 (multiReduction .maximumf [1] S512 s 0xFF800000#32 reduces_S512x2048_S512 (.inl rfl) rfl)
      shapeCasts_S512_S512x1) broadcasts_S512x1_S512x2048

/-- The exponentials of the entries less their row's largest. -/
def expV (s : FVec Ideal S512x2048 .f32) : FVec Ideal S512x2048 .f32 := exp (subf s (rowMaxV s))

/-- Each row's sum, repeated along the row. -/
def rowSumV (p : FVec Ideal S512x2048 .f32) : FVec Ideal S512x2048 .f32 :=
  broadcastTo S512x2048
    (shapeCast S512x1 (multiReduction .add [1] S512 p 0x00000000#32 reduces_S512x2048_S512 (.inl rfl) rfl)
      shapeCasts_S512_S512x1) broadcasts_S512x1_S512x2048

/-- The softmax along each row. -/
def softmaxV (s : FVec Ideal S512x2048 .f32) : FVec Ideal S512x2048 .f32 := divf (expV s) (rowSumV (expV s))

/-- The weights mixed over the value rows. -/
def mixV (p : FVec Ideal S512x2048 .f32) (x2 : Vec Ideal S1x2048x64 .f32) : FVec Ideal S512x64 .f32 :=
  matmul dot_S512x2048_S2048x64_S512x64_1_0_0_1_n_n none (truncf .bf16 p bitsLt_bf16_f32)
    (truncf .bf16 (shapeCast S2048x64 x2 shapeCasts_S1x2048x64_S2048x64) bitsLt_bf16_f32)
    (constant S512x64 .f32 0x00000000#32)

/-- Each row's Euclidean norm plus ε, repeated along the row. -/
def rowNormV (o : FVec Ideal S512x64 .f32) : FVec Ideal S512x64 .f32 :=
  broadcastTo S512x64
    (addf (sqrt (shapeCast S512x1
        (multiReduction .add [1] S512 (mulf o o) 0x00000000#32 reduces_S512x64_S512 (.inl rfl) rfl) shapeCasts_S512_S512x1))
      (broadcast S512x1 (Scalar.ofBits (F := Ideal) .f32 0x322BCC77#32))) broadcasts_S512x1_S512x64

/-- Each row divided by its norm plus ε. -/
def normV (o : FVec Ideal S512x64 .f32) : FVec Ideal S512x64 .f32 := divf o (rowNormV o)

/-- The stored attention weights are the softmax of the scores. -/
theorem pay2_eq (x0 : Vec Ideal S1x512x64 .f32) (x1 : Vec Ideal S1x2048x64 .f32) :
    k0_pay2 x0 x1 = softmaxV (scoresV x0 x1) := rfl

/-- The stored output is the normalised mix of the value rows. -/
theorem pay4_eq (x0 : Vec Ideal S1x512x64 .f32) (x1 x2 : Vec Ideal S1x2048x64 .f32) :
    k0_pay4 x0 x1 x2 = normV (mixV (softmaxV (scoresV x0 x1)) x2) := rfl

/-! ## Each step read at an index -/

/-- The score of query row r against key row j. -/
theorem scoresV_apply (x0 : Vec Ideal S1x512x64 .f32) (x1 : Vec Ideal S1x2048x64 .f32) (r : Fin 512) (j : Fin 2048) :
    scoresV x0 x1 (ix2 r j)
      = scoreScaled (Ideal.ofBits .f32 0x3E000000#32) (fun e : Fin 64 => x0 (ix3 (0 : Fin 1) r e))
          (fun (j' : Fin 2048) (e : Fin 64) => x1 (ix3 (0 : Fin 1) j' e)) j := by
  unfold scoresV scoreScaled
  refine (matmulNT dot_S512x64_S2048x64_S512x2048_1_1_0_0_n_n rfl rfl rfl rfl rfl rfl none _ _ r j).trans ?_
  refine Finset.sum_congr rfl fun e _ => ?_
  show (shapeCast S512x64 x0 shapeCasts_S1x512x64_S512x64 (ix2 r e) * Ideal.ofBits .f32 0x3E000000#32)
      * shapeCast S2048x64 x1 shapeCasts_S1x2048x64_S2048x64 (ix2 j e) = _
  rw [shapeCast_1ab_ab_apply, shapeCast_1ab_ab_apply]

/-- The row maximum at (r, j) is the supremum of row r. -/
theorem rowMaxV_apply (s : FVec Ideal S512x2048 .f32) (r : Fin 512) (j : Fin 2048) :
    rowMaxV s (ix2 r j) = Finset.univ.sup fun k : Fin 2048 => s (ix2 r k) := by
  unfold rowMaxV
  rw [broadcastTo_a1_ab_apply, shapeCast_a_a1_apply]
  exact rowMax_apply s reduces_S512x2048_S512 (.inl rfl) rfl r

/-- The shifted exponential at (r, j). -/
theorem expV_apply (s : FVec Ideal S512x2048 .f32) (r : Fin 512) (j : Fin 2048) :
    expV s (ix2 r j) = Ideal.exp (s (ix2 r j) - Finset.univ.sup fun k : Fin 2048 => s (ix2 r k)) := by
  show Ideal.exp (s (ix2 r j) - rowMaxV s (ix2 r j)) = _
  rw [rowMaxV_apply]

/-- The row sum at (r, j) is the sum of row r. -/
theorem rowSumV_apply (p : FVec Ideal S512x2048 .f32) (r : Fin 512) (j : Fin 2048) :
    rowSumV p (ix2 r j) = ∑ k : Fin 2048, p (ix2 r k) := by
  unfold rowSumV
  rw [broadcastTo_a1_ab_apply, shapeCast_a_a1_apply]
  exact rowSum_apply p reduces_S512x2048_S512 (.inl rfl) rfl r

/-- The softmax at (r, j) is the weight of entry j of row r. -/
theorem softmaxV_apply (s : FVec Ideal S512x2048 .f32) (r : Fin 512) (j : Fin 2048) :
    softmaxV s (ix2 r j) = weights (fun k : Fin 2048 => s (ix2 r k)) j := by
  show Ideal.div (expV s (ix2 r j)) (rowSumV (expV s) (ix2 r j)) = _
  rw [rowSumV_apply, expV_apply]
  unfold weights
  exact congrArg _ (Finset.sum_congr rfl fun k _ => expV_apply s r k)

/-- The mixed value at (r, e). -/
theorem mixV_apply (p : FVec Ideal S512x2048 .f32) (x2 : Vec Ideal S1x2048x64 .f32) (r : Fin 512) (e : Fin 64) :
    mixV p x2 (ix2 r e)
      = mix (fun j : Fin 2048 => p (ix2 r j)) (fun (j : Fin 2048) (e' : Fin 64) => x2 (ix3 (0 : Fin 1) j e')) e := by
  unfold mixV mix
  refine (matmulNN dot_S512x2048_S2048x64_S512x64_1_0_0_1_n_n rfl rfl rfl rfl rfl rfl none _ _ r e).trans ?_
  refine Finset.sum_congr rfl fun j _ => ?_
  show p (ix2 r j) * shapeCast S2048x64 x2 shapeCasts_S1x2048x64_S2048x64 (ix2 j e) = _
  rw [shapeCast_1ab_ab_apply]

/-- The normalised row at (r, e). -/
theorem normV_apply (o : FVec Ideal S512x64 .f32) (r : Fin 512) (e : Fin 64) :
    normV o (ix2 r e) = normed (Ideal.ofBits .f32 0x322BCC77#32) (fun e' : Fin 64 => o (ix2 r e')) e := by
  show Ideal.div (o (ix2 r e)) (rowNormV o (ix2 r e)) = _
  unfold rowNormV normed
  rw [broadcastTo_a1_ab_apply]
  show Ideal.div (o (ix2 r e)) (Ideal.sqrt (shapeCast S512x1
      (multiReduction .add [1] S512 (mulf o o) 0x00000000#32 reduces_S512x64_S512 (.inl rfl) rfl) shapeCasts_S512_S512x1
        (ix2 r (0 : Fin 1))) + Ideal.ofBits .f32 0x322BCC77#32) = _
  rw [shapeCast_a_a1_apply, rowSum_apply (mulf o o) reduces_S512x64_S512 (.inl rfl) rfl r]
  rfl

/-! ## The two stored values read at an index -/

/-- The stored weight at (r, j): the softmax weight of key j for query row r. -/
theorem pay2_apply (x0 : Vec Ideal S1x512x64 .f32) (x1 : Vec Ideal S1x2048x64 .f32) (r : Fin 512) (j : Fin 2048) :
    k0_pay2 x0 x1 (ix2 r j)
      = weights (scoreScaled (Ideal.ofBits .f32 0x3E000000#32) (fun e : Fin 64 => x0 (ix3 (0 : Fin 1) r e))
          (fun (j' : Fin 2048) (e : Fin 64) => x1 (ix3 (0 : Fin 1) j' e))) j := by
  rw [pay2_eq, softmaxV_apply]
  exact congrArg (fun s => weights s j) (funext fun k => scoresV_apply x0 x1 r k)

/-- The stored output at (r, e): the weights of query row r mixed over the value rows, normalised. -/
theorem pay4_apply (x0 : Vec Ideal S1x512x64 .f32) (x1 x2 : Vec Ideal S1x2048x64 .f32) (r : Fin 512) (e : Fin 64) :
    k0_pay4 x0 x1 x2 (ix2 r e)
      = normed (Ideal.ofBits .f32 0x322BCC77#32)
          (mix (weights (scoreScaled (Ideal.ofBits .f32 0x3E000000#32) (fun e : Fin 64 => x0 (ix3 (0 : Fin 1) r e))
              (fun (j' : Fin 2048) (e : Fin 64) => x1 (ix3 (0 : Fin 1) j' e))))
            (fun (j : Fin 2048) (e' : Fin 64) => x2 (ix3 (0 : Fin 1) j e'))) e := by
  rw [pay4_eq, normV_apply]
  refine congrArg (fun o => normed (Ideal.ofBits .f32 0x322BCC77#32) o e) (funext fun e' => ?_)
  rw [mixV_apply]
  refine congrArg (fun w => mix w (fun (j : Fin 2048) (e'' : Fin 64) => x2 (ix3 (0 : Fin 1) j e'')) e') (funext fun j => ?_)
  rw [← pay2_eq, pay2_apply]

/-- The stored weights carry a leading unit axis. -/
theorem pay3_apply (x0 : Vec Ideal S1x512x64 .f32) (x1 : Vec Ideal S1x2048x64 .f32) (u : Fin 1) (r : Fin 512)
    (j : Fin 2048) : k0_pay3 x0 x1 (ix3 u r j) = k0_pay2 x0 x1 (ix2 r j) := by
  unfold k0_pay3
  exact shapeCast_ab_1ab_apply _ _ u r j

/-- The stored output carries a leading unit axis. -/
theorem pay1_apply (v : FVec Ideal S512x64 .f32) (u : Fin 1) (r : Fin 512) (e : Fin 64) :
    k0_pay1 v (ix3 u r e) = v (ix2 r e) := by
  unfold k0_pay1
  exact shapeCast_ab_1ab_apply _ _ u r e

end Cert.KernelIdeal.Pay

end
-- ==== Proof.KernelBlocks.lean ====
/-
  From blocks to arrays: after the launch the two output arrays of the kernel hold, in the layout
  [batch and head fused, row, column], the attention weights and the preconditioned output of the row-by-row
  specification (scores scaled first) of the three arrays the launch reads.

  The grid has a point for every head g and every block of 512 consecutive query rows. At a point the query window's
  block is rows 512 * qi .. 512 * qi + 511 of head g, the key and value windows' blocks are all 2048 rows of head g, and
  the two output windows' blocks sit at the same head and rows as the query block. So what a point writes back is the
  restriction of one whole-array function to its block, the blocks cover the arrays, and the arrays end at that function.
-/
import proofs.«112731_j62113817035127_2_alg».proof.Proof.Gen.KernelIdeal.Frame
import proofs.«112731_j62113817035127_2_alg».proof.Proof.KernelPay
import proofs.«112731_j62113817035127_2_alg».proof.Proof.AttnSpec
import Idealize.ShloMosaic.Lib.Pipeline.Value
import Idealize.ShloMosaic.Lib.ValueIdx

noncomputable section

open scoped BigOperators

namespace Cert.KernelIdeal.Blocks

open Idealize.ShloMosaic Idealize.ShloMosaic.TcCoe Idealize.SL.Sem Idealize.ShloMosaic.ValueIdx
open Cert.KernelIdeal Cert.KernelIdeal.Gen Cert.KernelIdeal.Pay Cert.AttnSpec Cert.LibAttentionRows
open Idealize.ShloMosaic.Pipeline (Dat)

variable (m : (ℓ : Loc nD τ sig) → Buf (Elt Ideal) ℓ)

/-- The scale folded into the queries. -/
abbrev scK : (Fin 64 → EReal) → (Fin 2048 → Fin 64 → EReal) → Fin 2048 → EReal :=
  scoreScaled (Ideal.ofBits .f32 0x3E000000#32)
/-- The ε of the row norm. -/
abbrev ε : EReal := Ideal.ofBits .f32 0x322BCC77#32

theorem hz : (![0, 0, 0] : Fin 3 → Nat) = fun _ => 0 := funext fun a => by fin_cases a <;> rfl

/-! ## The index maps over the grid -/

/-- The windows' block indices at every point, relative to those of the weights' window: same head everywhere, same
    row block for the queries and the output, block 0 of rows for keys and values, block 0 of columns everywhere. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0
    ∧ win0_1.index t (2 : Fin 3) = 0
    ∧ win0_2.index t (0 : Fin 3) = win0_4.index t (0 : Fin 3) ∧ win0_2.index t (1 : Fin 3) = 0
    ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) ≤ 31 ∧ win0_4.index t (1 : Fin 3) ≤ 3 :=
  (by decide +kernel : ∀ t : Fin grid0.N, _)

/-- Every head and every block of rows is some point's. -/
theorem idx_onto : ∀ (q0 : Fin 32) (q1 : Fin 4), ∃ t : Fin cfg0.N, win0_4.index t = ![q0.val, q1.val, 0] :=
  (by decide +kernel : ∀ (q0 : Fin 32) (q1 : Fin 4), ∃ t : Fin grid0.N, win0_4.index t = ![q0.val, q1.val, 0])

/-- The head of point t. -/
def headOf (t : Fin cfg0.N) : Fin 32 := ⟨win0_4.index t (0 : Fin 3), by have := idx_facts t; omega⟩
/-- The row of the arrays that row r of point t's block is. -/
def rowOf (t : Fin cfg0.N) (r : Fin 512) : Fin 2048 :=
  ⟨win0_4.index t (1 : Fin 3) * 512 + r.val, by have := idx_facts t; have := r.isLt; omega⟩

/-! ## The blocks read at an index -/

/-- The query block at point t: rows of head (headOf t) from row (rowOf t 0) on. -/
theorem iblk0_apply (c : Dev nD) (t : Fin cfg0.N) (u : Fin 1) (r : Fin 512) (e : Fin 64) :
    (iblk m c 0 t : Vec Ideal S1x512x64 .f32) (ix3 u r e)
      = (V m c main_v0 : S32x2048x64.Idx → EReal) (ix3 (headOf t) (rowOf t r) e) := by
  obtain ⟨e00, e01, e02, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * u.val = win0_4.index t (0 : Fin 3); have := u.isLt; omega
  | ⟨1, _⟩ => show win0_0.index t (1 : Fin 3) * 512 + 1 * r.val = win0_4.index t (1 : Fin 3) * 512 + r.val; omega
  | ⟨2, _⟩ => show win0_0.index t (2 : Fin 3) * 64 + 1 * e.val = e.val; omega

/-- The key block at point t: all rows of head (headOf t). -/
theorem iblk1_apply (c : Dev nD) (t : Fin cfg0.N) (u : Fin 1) (j : Fin 2048) (e : Fin 64) :
    (iblk m c 1 t : Vec Ideal S1x2048x64 .f32) (ix3 u j e)
      = (V m c main_v1 : S32x2048x64.Idx → EReal) (ix3 (headOf t) j e) := by
  obtain ⟨-, -, -, e10, e11, e12, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 3) * 1 + 1 * u.val = win0_4.index t (0 : Fin 3); have := u.isLt; omega
  | ⟨1, _⟩ => show win0_1.index t (1 : Fin 3) * 2048 + 1 * j.val = j.val; omega
  | ⟨2, _⟩ => show win0_1.index t (2 : Fin 3) * 64 + 1 * e.val = e.val; omega

/-- The value block at point t: all rows of head (headOf t). -/
theorem iblk2_apply (c : Dev nD) (t : Fin cfg0.N) (u : Fin 1) (j : Fin 2048) (e : Fin 64) :
    (iblk m c 2 t : Vec Ideal S1x2048x64 .f32) (ix3 u j e)
      = (V m c main_v2 : S32x2048x64.Idx → EReal) (ix3 (headOf t) j e) := by
  obtain ⟨-, -, -, -, -, -, e20, e21, e22, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 3) * 1 + 1 * u.val = win0_4.index t (0 : Fin 3); have := u.isLt; omega
  | ⟨1, _⟩ => show win0_2.index t (1 : Fin 3) * 2048 + 1 * j.val = j.val; omega
  | ⟨2, _⟩ => show win0_2.index t (2 : Fin 3) * 64 + 1 * e.val = e.val; omega

/-- Where entry (u, r, j) of the weights' block at point t sits in the array. -/
theorem emb4 (t : Fin cfg0.N) (u : Fin 1) (r : Fin 512) (j : Fin 2048) :
    (((cfg0.win 4).blk t).view.emb (ix3 u r j) : S32x2048x2048.Idx) = ix3 (headOf t) (rowOf t r) j := by
  obtain ⟨-, -, -, -, -, -, -, -, -, -, -, -, e42, -⟩ := idx_facts t
  refine funext fun a => Fin.ext ?_
  match a with
  | ⟨0, _⟩ => show win0_4.index t (0 : Fin 3) * 1 + 1 * u.val = win0_4.index t (0 : Fin 3); have := u.isLt; omega
  | ⟨1, _⟩ => show win0_4.index t (1 : Fin 3) * 512 + 1 * r.val = win0_4.index t (1 : Fin 3) * 512 + r.val; omega
  | ⟨2, _⟩ => show win0_4.index t (2 : Fin 3) * 2048 + 1 * j.val = j.val; omega

/-- Where entry (u, r, e) of the output's block at point t sits in the array. -/
theorem emb3 (t : Fin cfg0.N) (u : Fin 1) (r : Fin 512) (e : Fin 64) :
    (((cfg0.win 3).blk t).view.emb (ix3 u r e) : S32x2048x64.Idx) = ix3 (headOf t) (rowOf t r) e := by
  obtain ⟨-, -, -, -, -, -, -, -, -, e30, e31, e32, -⟩ := idx_facts t
  refine funext fun a => Fin.ext ?_
  match a with
  | ⟨0, _⟩ => show win0_3.index t (0 : Fin 3) * 1 + 1 * u.val = win0_4.index t (0 : Fin 3); have := u.isLt; omega
  | ⟨1, _⟩ => show win0_3.index t (1 : Fin 3) * 512 + 1 * r.val = win0_4.index t (1 : Fin 3) * 512 + r.val; omega
  | ⟨2, _⟩ => show win0_3.index t (2 : Fin 3) * 64 + 1 * e.val = e.val; omega

/-! ## What a point writes back -/

/-- The score rows the body computes at point t are those of the whole arrays at the block's head and row. -/
theorem scores_blk (c : Dev nD) (t : Fin cfg0.N) (r : Fin 512) :
    scK (fun e : Fin 64 => (iblk m c 0 t : Vec Ideal S1x512x64 .f32) (ix3 (0 : Fin 1) r e))
        (fun (j' : Fin 2048) (e : Fin 64) => (iblk m c 1 t : Vec Ideal S1x2048x64 .f32) (ix3 (0 : Fin 1) j' e))
      = scK (rows3 (V m c main_v0) (headOf t) (rowOf t r)) (rows3 (V m c main_v1) (headOf t)) :=
  congr (congrArg scK (funext fun e => iblk0_apply m c t 0 r e))
    (funext fun j' => funext fun e => iblk1_apply m c t 0 j' e)

/-- POINT t WRITES BACK block t of the attention weights of the arrays the launch reads. -/
theorem flushed4_eq (c : Dev nD) (t : Fin cfg0.N) :
    (dats m 0 c).flushed 4 t
      = ((cfg0.win 4).blk t).view.read (Elt Ideal) (attn3 scK (V m c main_v0) (V m c main_v1)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz]
  funext y
  obtain ⟨u, r, j, rfl⟩ : ∃ (u : Fin 1) (r : Fin 512) (j : Fin 2048), y = ix3 u r j :=
    ⟨y 0, y 1, y 2, eq_ix3 (n0 := 1) (n1 := 512) (n2 := 2048) y⟩
  rw [View.read_apply, emb4 t u r j]
  show k0_pay3 (iblk m c 0 t) (iblk m c 1 t) (ix3 u r j)
    = weights (scK (rows3 (V m c main_v0) (headOf t) (rowOf t r)) (rows3 (V m c main_v1) (headOf t))) j
  refine (pay3_apply (iblk m c 0 t) (iblk m c 1 t) u r j).trans ((pay2_apply (iblk m c 0 t) (iblk m c 1 t) r j).trans ?_)
  exact congrArg (fun s => weights s j) (scores_blk m c t r)

/-- POINT t WRITES BACK block t of the preconditioned output of the arrays the launch reads. -/
theorem flushed3_eq (c : Dev nD) (t : Fin cfg0.N) :
    (dats m 0 c).flushed 3 t
      = ((cfg0.win 3).blk t).view.read (Elt Ideal) (out3 scK ε (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  funext y
  obtain ⟨u, r, e, rfl⟩ : ∃ (u : Fin 1) (r : Fin 512) (e : Fin 64), y = ix3 u r e :=
    ⟨y 0, y 1, y 2, eq_ix3 (n0 := 1) (n1 := 512) (n2 := 64) y⟩
  rw [View.read_apply, emb3 t u r e]
  show k0_pay1 (k0_pay4 (iblk m c 0 t) (iblk m c 1 t) (iblk m c 2 t)) (ix3 u r e)
    = normed ε (mix (weights (scK (rows3 (V m c main_v0) (headOf t) (rowOf t r)) (rows3 (V m c main_v1) (headOf t))))
        (rows3 (V m c main_v2) (headOf t))) e
  refine (pay1_apply _ u r e).trans ((pay4_apply (iblk m c 0 t) (iblk m c 1 t) (iblk m c 2 t) r e).trans ?_)
  refine congrArg (fun o => normed ε o e) ?_
  exact congr (congrArg (fun s => mix (weights s)) (scores_blk m c t r))
    (funext fun j => funext fun e' => iblk2_apply m c t 0 j e')

/-! ## The blocks cover the arrays -/

/-- An index of the weights' array is in point t's block iff each coordinate is in the block's range on its axis. -/
theorem mem_blk4 (t : Fin cfg0.N) (i : S32x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v3_1).slice (win0_4.rect t)).set ↔ _
  rw [View.set_slice_whole, Rect.mem_set_unit]
  exact Iff.rfl

/-- The same for the output's array. -/
theorem mem_blk3 (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3_0).slice (win0_3.rect t)).set ↔ _
  rw [View.set_slice_whole, Rect.mem_set_unit]
  exact Iff.rfl

/-- Every index of the weights' array is in the block of the point of its head and its row's block of 512. -/
theorem cover4 (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1; omega
  | ⟨1, _⟩ =>
    show win0_4.index t (1 : Fin 3) * 512 ≤ (i 1).val ∧ (i 1).val < win0_4.index t (1 : Fin 3) * 512 + 512; omega
  | ⟨2, _⟩ =>
    show win0_4.index t (2 : Fin 3) * 2048 ≤ (i 2).val ∧ (i 2).val < win0_4.index t (2 : Fin 3) * 2048 + 2048; omega

/-- The same for the output's array. -/
theorem cover3 (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨-, -, -, -, -, -, -, -, -, e30, e31, e32, -⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1; omega
  | ⟨1, _⟩ =>
    show win0_3.index t (1 : Fin 3) * 512 ≤ (i 1).val ∧ (i 1).val < win0_3.index t (1 : Fin 3) * 512 + 512; omega
  | ⟨2, _⟩ =>
    show win0_3.index t (2 : Fin 3) * 64 ≤ (i 2).val ∧ (i 2).val < win0_3.index t (2 : Fin 3) * 64 + 64; omega

/-! ## The arrays after the launch -/

/-- The weights' array ends holding the attention weights of the arrays the launch reads. -/
theorem final4 (c : Dev nD) :
    (dats m 0 c).arrAt 4 cfg0.N = attn3 scK (V m c main_v0) (V m c main_v1) :=
  (dats m 0 c).arrAt_eq_of_cover 4 (attn3 scK (V m c main_v0) (V m c main_v1)) (fun t _ => flushed4_eq m c t) cover4

/-- The output's array ends holding the preconditioned output of the arrays the launch reads. -/
theorem final3 (c : Dev nD) :
    (dats m 0 c).arrAt 3 cfg0.N = out3 scK ε (V m c main_v0) (V m c main_v1) (V m c main_v2) :=
  (dats m 0 c).arrAt_eq_of_cover 3 (out3 scK ε (V m c main_v0) (V m c main_v1) (V m c main_v2))
    (fun t _ => flushed3_eq m c t) cover3

end Cert.KernelIdeal.Blocks

end
-- ==== Proof.KernelRun.lean ====
/-
  The kernel's run, read: every weakly fair execution of the idealized kernel's program ends with its two results at
  the attention weights and the preconditioned output of the row-by-row specification (scores scaled first) of its three
  arguments, in the layout [batch, head, row, column], and with the arguments unchanged.

  Before the launch the program fuses batch and head of each argument (a row-major reshape); the launch leaves the two
  arrays of the fused layout at the specification of the fused arguments (the blocks-to-arrays step); after the launch
  the program unfuses the two arrays. Fusing, computing head by head and unfusing is computing head by head.
-/
import proofs.«112731_j62113817035127_2_alg».proof.Proof.Gen.KernelIdeal.Frame
import proofs.«112731_j62113817035127_2_alg».proof.Proof.KernelBlocks
import proofs.«112731_j62113817035127_2_alg».proof.Proof.AttnSpec
import Idealize.ShloMosaic.Lib.Pipeline.Value
import Idealize.ShloMosaic.Lib.StableHlo.Run
import Idealize.ShloMosaic.Lib.ValueIdx

noncomputable section

namespace Cert.KernelIdeal.Run

open Idealize.ShloMosaic Idealize.ShloMosaic.TcCoe Idealize.SL.Sem Idealize.ShloMosaic.ValueIdx
open Cert.KernelIdeal Cert.KernelIdeal.Gen Cert.KernelIdeal.Blocks Cert.AttnSpec Cert.LibAttentionRows
open Idealize.ShloMosaic.Pipeline (Dat)

variable (m : (ℓ : Loc nD τ sig) → Buf (Elt Ideal) ℓ) (ρ : Dev nD → PrngReg)

/-! ## The arrays the launch reads: the arguments with batch and head fused -/

theorem V_main_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

theorem V_main_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl

theorem V_main_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-! ## The results: the launch's arrays with batch and head unfused -/

/-- The second result: the attention weights. -/
theorem tail_v5 (c : Dev nD) :
    Pipeline.afterTail₀ cfgs (dats m) 0 (V0 m) [hostOps1] c main_v5
      = attn4 scK (m ((c : Thread nD τ).loc main_arg0)) (m ((c : Thread nD τ).loc main_arg1)) := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v3_1) = (dats m 0 c).arrAt 4 cfg0.N :=
    Pipeline.withArrays_arr spec0 launch0.win.arr_inj c _ _ 4
  rw [e, final4 m c, V_main_v0 m c, V_main_v1 m c]
  exact attn_reshape scK _ _ _ _

/-- The first result: the preconditioned output. -/
theorem tail_v4 (c : Dev nD) :
    Pipeline.afterTail₀ cfgs (dats m) 0 (V0 m) [hostOps1] c main_v4
      = out4 scK ε (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3_0) = (dats m 0 c).arrAt 3 cfg0.N :=
    Pipeline.withArrays_arr spec0 launch0.win.arr_inj c _ _ 3
  rw [e, final3 m c, V_main_v0 m c, V_main_v1 m c, V_main_v2 m c]
  exact out_reshape scK ε _ _ _ _ _

/-! ## The run -/

/-- The frame run re-posted: each result at its function of the arguments, the arguments unchanged. -/
theorem run : θ_run defs (onTc (τ := τ) (main (F := Ideal))) ⟨m, fun _ => 0, ρ⟩ fun r => ∀ c : Dev nD,
      r.2.mem ((c.tc : Thread nD τ).loc main_v4)
        = out4 scK ε (m ((c : Thread nD τ).loc main_arg0)) (m ((c : Thread nD τ).loc main_arg1))
            (m ((c : Thread nD τ).loc main_arg2))
      ∧ r.2.mem ((c.tc : Thread nD τ).loc main_v5)
        = attn4 scK (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.LibHostRowMax.lean ====
/-
  The host's maximum over one axis, read at the ideal instance.

  A reference that normalises a row of scores first takes the row's largest entry with a host reduction whose
  body is the maximum and whose initial value is the f32 word of -∞.  At the ideal instance that word is the
  bottom of the extended reals, the body is the lattice's maximum, and the reduction over ONE axis, read at a
  reduced index j, is the supremum over that axis's coordinates k of the operand at "j with k put back"
  (Shape.Reduces.lift).  Stated for any shapes; a certificate instantiates it at its literal ones and rewrites
  the lifted index into coordinates.
-/
import Idealize.ShloMosaic.PureOps.Ideal.Laws
import Idealize.ShloMosaic.PureOps.Reduce

noncomputable section

open Idealize.ShloMosaic

namespace Cert.Lib.HostRowMax

/-- The f32 word 0xFF800000 denotes -∞, the bottom of the extended reals. -/
theorem ofBits_negInf : Ideal.ofBits .f32 0xFF800000#32 = (⊥ : EReal) := by
  simp [Ideal.ofBits, Ideal.ieee]

/-- Folding the maximum from the bottom over a finite set is the supremum over it. -/
theorem fold_max_bot {β : Type*} (T : Finset β) (f : β → EReal) : T.fold max (⊥ : EReal) f = T.sup f := by
  classical
  induction T using Finset.induction_on with
  | empty => simp
  | insert b T hb ih => rw [Finset.fold_insert hb, Finset.sup_insert, ih]

/-- From -∞ the host's reduction with a maximum body over one axis, at the reduced index j, is the supremum over
    that axis of the operand. -/
theorem hostReduce_max {s t u : Shape} {a : Fin s.rank} (x : FVec Ideal s .f32) (h' : s.ReducesTo [a] t)
    (h : s.Reduces [a] t) (hu : 0 < u.numel) (j : t.Idx) :
    Host.reduce FloatOps.maximumf x (constant u .f32 0xFF800000#32) h' hu j
      = Finset.univ.sup fun k : Fin (s.size a) => x (h.lift j k) := by
  rw [Host.reduce_eq_fold_single FloatOps.maximumf x _ h' h hu]
  have hi : (constant (F := Ideal) u .f32 0xFF800000#32) (Shape.Idx.first hu) = (⊥ : EReal) := ofBits_negInf
  rw [hi]
  exact fold_max_bot Finset.univ (x ∘ h.lift j)

end Cert.Lib.HostRowMax

end
-- ==== Proof.RefSpec.lean ====
/-
  The reference program read at an index: its two results are the attention weights and the preconditioned output of
  the row-by-row specification, with the scores divided by the square root of 64 after the dot product.

  Stage by stage, at batch b, head h and row r:
    * the scores of row r: the dot product of query row r with key row j, divided by sqrt 64;
    * the row maximum: the host reduction by maximum from -∞, joined once more with -∞, is the supremum of the row;
    * the exponentials of the differences, their row sum (from zero), and the quotient: the softmax weights;
    * the weights mixed over the value rows (a batched dot product contracting the key axis);
    * the row's sum of squares, its square root plus ε, and the quotient: the preconditioned output.
-/
import proofs.«112731_j62113817035127_2_alg».proof.Proof.Gen.ReferenceIdeal.Read
import proofs.«112731_j62113817035127_2_alg».proof.Proof.LibHostRowMax
import proofs.«112731_j62113817035127_2_alg».proof.Proof.AttnSpec
import Idealize.ShloMosaic.Lib.ValueIdx
import Idealize.ShloMosaic.Lib.Pipeline.Value

noncomputable section

open scoped BigOperators

namespace Cert.ReferenceIdeal.RefSpec

open Idealize.ShloMosaic Idealize.ShloMosaic.ValueIdx Cert.ReferenceIdeal Cert.ReferenceIdeal.Gen Cert.ReferenceIdeal.Read
open Cert.AttnSpec Cert.LibAttentionRows

/-- The divisor of the scores: the ideal square root of the word of 64. -/
abbrev σ : EReal := Ideal.sqrt (Ideal.ofBits .f32 0x42800000#32)
/-- The ε of the row norm. -/
abbrev ε : EReal := Ideal.ofBits .f32 0x322BCC77#32

variable (x0 x1 x2 : (⟨S2x16x2048x64, .f32⟩ : BufTy).Contents (Elt Ideal))

/-- The score of row r against key j. -/
theorem scores_apply (b : Fin 2) (h : Fin 16) (r j : Fin 2048) :
    val_main_v3 (F := Ideal) x0 x1 (ix4 b h r j) = scoreDivided σ (rows4 x0 b h r) (rows4 x1 b h) j := by
  have el : ∀ k : Fin 64, lidx_main_v0 (ix4 b h r j) k = ix4 b h r k := fun k => funext fun a => Fin.ext (by
    match a with | ⟨0, _⟩ => rfl | ⟨1, _⟩ => rfl | ⟨2, _⟩ => rfl | ⟨3, _⟩ => rfl)
  have er : ∀ k : Fin 64, ridx_main_v0 (ix4 b h r j) k = ix4 b h j k := fun k => funext fun a => Fin.ext (by
    match a with | ⟨0, _⟩ => rfl | ⟨1, _⟩ => rfl | ⟨2, _⟩ => rfl | ⟨3, _⟩ => rfl)
  rw [val_main_v3_apply, val_main_v0_apply, val_main_v2_apply, val_main_v1_apply, val_main_cst_apply]
  simp only [el, er, Ideal.hostDivf_def, Ideal.hostUnary_sqrt_def, Ideal.ofBits_def]
  rfl

/-- The row maximum. -/
theorem rowmax_apply (b : Fin 2) (h : Fin 16) (r : Fin 2048) :
    val_main_v6 (F := Ideal) x0 x1 (ix3 b h r)
      = Finset.univ.sup fun k : Fin 2048 => val_main_v3 (F := Ideal) x0 x1 (ix4 b h r k) := by
  rw [val_main_v6_apply, val_main_v5_apply, val_main_cst_1_apply]
  unfold val_main_v4 val_main_cst_0
  rw [Cert.Lib.HostRowMax.hostReduce_max (val_main_v3 (F := Ideal) x0 x1) reducesTo_S2x16x2048x2048_S2x16x2048_d3
    (by decide : S2x16x2048x2048.Reduces [3] S2x16x2048) h_S_ (ix3 b h r)]
  simp only [Ideal.maximumf_def, Ideal.ofBits_def, Cert.Lib.HostRowMax.ofBits_negInf, bot_sup_eq]
  exact congrArg Finset.univ.sup (funext fun k => congrArg (val_main_v3 (F := Ideal) x0 x1) (funext fun a => Fin.ext (by
    match a with | ⟨0, _⟩ => rfl | ⟨1, _⟩ => rfl | ⟨2, _⟩ => rfl | ⟨3, _⟩ => rfl)))

/-- The shifted exponential. -/
theorem exp_apply (b : Fin 2) (h : Fin 16) (r j : Fin 2048) :
    val_main_v10 (F := Ideal) x0 x1 (ix4 b h r j)
      = Ideal.exp (val_main_v3 (F := Ideal) x0 x1 (ix4 b h r j)
          - Finset.univ.sup fun k : Fin 2048 => val_main_v3 (F := Ideal) x0 x1 (ix4 b h r k)) := by
  have e8 : idx_main_v8 (ix4 b h r j) = ix4 b h r (0 : Fin 1) := funext fun a => Fin.ext (by
    match a with | ⟨0, _⟩ => rfl | ⟨1, _⟩ => rfl | ⟨2, _⟩ => rfl | ⟨3, _⟩ => rfl)
  have e7 : idx_main_v7 (ix4 b h r (0 : Fin 1)) = ix3 b h r := funext fun a => Fin.ext (by
    match a with | ⟨0, _⟩ => rfl | ⟨1, _⟩ => rfl | ⟨2, _⟩ => rfl)
  rw [val_main_v10_apply, val_main_v9_apply, val_main_v8_apply, e8, val_main_v7_apply, e7, rowmax_apply]
  simp only [Ideal.hostUnary_exp_def, Ideal.subf_def]

/-- The softmax weight. -/
theorem weights_apply (b : Fin 2) (h : Fin 16) (r j : Fin 2048) :
    val_main_v14 (F := Ideal) x0 x1 (ix4 b h r j)
      = weights (fun k : Fin 2048 => val_main_v3 (F := Ideal) x0 x1 (ix4 b h r k)) j := by
  have e13 : idx_main_v13 (ix4 b h r j) = ix4 b h r (0 : Fin 1) := funext fun a => Fin.ext (by
    match a with | ⟨0, _⟩ => rfl | ⟨1, _⟩ => rfl | ⟨2, _⟩ => rfl | ⟨3, _⟩ => rfl)
  have e12 : idx_main_v12 (ix4 b h r (0 : Fin 1)) = ix3 b h r := funext fun a => Fin.ext (by
    match a with | ⟨0, _⟩ => rfl | ⟨1, _⟩ => rfl | ⟨2, _⟩ => rfl)
  have e11 : ∀ k : Fin 2048, idx_main_v11 (ix3 b h r) k = ix4 b h r k := fun k => funext fun a => Fin.ext (by
    match a with | ⟨0, _⟩ => rfl | ⟨1, _⟩ => rfl | ⟨2, _⟩ => rfl | ⟨3, _⟩ => rfl)
  rw [val_main_v14_apply, val_main_v13_apply, e13, val_main_v12_apply, e12, val_main_v11_apply, val_main_cst_2_apply,
    exp_apply]
  simp only [e11, exp_apply, Ideal.hostDivf_def, Ideal.ofBits_def, Ideal.ofBits_zero_f32, zero_add]
  rfl

/-- RESULT 1: the reference's attention weights are the specification's, with the divided scores. -/
theorem weights_eq : val_main_v14 (F := Ideal) x0 x1 = attn4 (scoreDivided σ) x0 x1 := by
  funext i
  obtain ⟨b, h, r, j, rfl⟩ : ∃ (b : Fin 2) (h : Fin 16) (r : Fin 2048) (j : Fin 2048), i = ix4 b h r j :=
    ⟨i 0, i 1, i 2, i 3, eq_ix4 i⟩
  rw [weights_apply]
  show _ = weights (scoreDivided σ (rows4 x0 b h r) (rows4 x1 b h)) j
  exact congrArg (fun s => weights s j) (funext fun k => scores_apply x0 x1 b h r k)

/-- The mixed value. -/
theorem mix_apply (b : Fin 2) (h : Fin 16) (r : Fin 2048) (e : Fin 64) :
    val_main_v15 (F := Ideal) x0 x1 x2 (ix4 b h r e)
      = mix (fun j : Fin 2048 => val_main_v14 (F := Ideal) x0 x1 (ix4 b h r j)) (rows4 x2 b h) e := by
  have el : ∀ k : Fin 2048, lidx_main_v15 (ix4 b h r e) k = ix4 b h r k := fun k => funext fun a => Fin.ext (by
    match a with | ⟨0, _⟩ => rfl | ⟨1, _⟩ => rfl | ⟨2, _⟩ => rfl | ⟨3, _⟩ => rfl)
  have er : ∀ k : Fin 2048, ridx_main_v15 (ix4 b h r e) k = ix4 b h k e := fun k => funext fun a => Fin.ext (by
    match a with | ⟨0, _⟩ => rfl | ⟨1, _⟩ => rfl | ⟨2, _⟩ => rfl | ⟨3, _⟩ => rfl)
  rw [val_main_v15_apply]
  simp only [el, er]
  rfl

/-- The preconditioned output. -/
theorem normed_apply (b : Fin 2) (h : Fin 16) (r : Fin 2048) (e : Fin 64) :
    val_main_v20 (F := Ideal) x0 x1 x2 (ix4 b h r e)
      = normed ε (fun e' : Fin 64 => val_main_v15 (F := Ideal) x0 x1 x2 (ix4 b h r e')) e := by
  have e19 : idx_main_v19 (ix4 b h r e) = ix4 b h r (0 : Fin 1) := funext fun a => Fin.ext (by
    match a with | ⟨0, _⟩ => rfl | ⟨1, _⟩ => rfl | ⟨2, _⟩ => rfl | ⟨3, _⟩ => rfl)
  have ec2 : idx_main_call0_v2 (ix4 b h r (0 : Fin 1)) = ix3 b h r := funext fun a => Fin.ext (by
    match a with | ⟨0, _⟩ => rfl | ⟨1, _⟩ => rfl | ⟨2, _⟩ => rfl)
  have ec1 : ∀ k : Fin 64, idx_main_call0_v1 (ix3 b h r) k = ix4 b h r k := fun k => funext fun a => Fin.ext (by
    match a with | ⟨0, _⟩ => rfl | ⟨1, _⟩ => rfl | ⟨2, _⟩ => rfl | ⟨3, _⟩ => rfl)
  rw [val_main_v20_apply, val_main_v19_apply, e19, val_main_v18_apply, val_main_v16_apply, val_main_call0_v2_apply, ec2,
    val_main_call0_v1_apply, val_main_call0_cst_apply, val_main_v17_apply, val_main_cst_3_apply]
  simp only [ec1, val_main_call0_v0_apply, Ideal.hostDivf_def, Ideal.hostUnary_sqrt_def, Ideal.ofBits_def,
    Ideal.ofBits_zero_f32, zero_add, Ideal.addf_def, Ideal.mulf_def]
  rfl

/-- RESULT 0: the reference's preconditioned output is the specification's, with the divided scores. -/
theorem out_eq : val_main_v20 (F := Ideal) x0 x1 x2 = out4 (scoreDivided σ) ε x0 x1 x2 := by
  funext i
  obtain ⟨b, h, r, e, rfl⟩ : ∃ (b : Fin 2) (h : Fin 16) (r : Fin 2048) (e : Fin 64), i = ix4 b h r e :=
    ⟨i 0, i 1, i 2, i 3, eq_ix4 i⟩
  rw [normed_apply]
  show _ = normed ε (mix (headW (scoreDivided σ) (rows4 x0 b h) (rows4 x1 b h) r) (rows4 x2 b h)) e
  refine congrArg (fun o => normed ε o e) (funext fun e' => ?_)
  rw [mix_apply]
  refine congrArg (fun w => mix w (rows4 x2 b h) e') (funext fun j => ?_)
  exact congrFun (weights_eq x0 x1) (ix4 b h r j)

end Cert.ReferenceIdeal.RefSpec

end
-- ==== Proof.lean ====
/-
  The certificate's claim for a scaled dot-product attention kernel with a row-norm preconditioner, against its
  reference, over the extended reals.

  Both programs return, for every batch, head and query row, the softmax weights of the row's scores against all keys
  and the weights mixed over the value rows, that row divided by its Euclidean norm plus ε. They differ in one place:
  the kernel multiplies the query row by 1/8 before the dot product, the reference divides the dot product by the
  square root of 64. On real inputs the two scores are equal (a factor moved across a finite sum), and everything
  downstream is the same function of the scores; the precondition says the inputs are real.

  The three frames are the generated frame certificates (the reference's is its generated run with the results
  dropped); the idealization rewrote nothing; the algebraic claim sets the kernel's run, read as a function of the
  arguments, beside the reference's run, read as the same function.
-/
import proofs.«112731_j62113817035127_2_alg».proof.Defs
import proofs.«112731_j62113817035127_2_alg».proof.Proof.Gen.Kernel
import proofs.«112731_j62113817035127_2_alg».proof.Proof.Gen.Kernel.Skeleton
import proofs.«112731_j62113817035127_2_alg».proof.Proof.Gen.Kernel.Launch
import proofs.«112731_j62113817035127_2_alg».proof.Proof.Gen.Kernel.Points
import proofs.«112731_j62113817035127_2_alg».proof.Proof.Gen.Kernel.Frame
import proofs.«112731_j62113817035127_2_alg».proof.Proof.Gen.KernelIdeal
import proofs.«112731_j62113817035127_2_alg».proof.Proof.Gen.KernelIdeal.Skeleton
import proofs.«112731_j62113817035127_2_alg».proof.Proof.Gen.KernelIdeal.Launch
import proofs.«112731_j62113817035127_2_alg».proof.Proof.Gen.KernelIdeal.Points
import proofs.«112731_j62113817035127_2_alg».proof.Proof.Gen.KernelIdeal.Frame
import proofs.«112731_j62113817035127_2_alg».proof.Proof.Gen.ReferenceIdeal
import proofs.«112731_j62113817035127_2_alg».proof.Proof.Gen.ReferenceIdeal.Run
import proofs.«112731_j62113817035127_2_alg».proof.Proof.Gen.ReferenceIdeal.Read
import proofs.«112731_j62113817035127_2_alg».proof.Proof.Gen.Pre_finite_inputs
import proofs.«112731_j62113817035127_2_alg».proof.Proof.AttnSpec
import proofs.«112731_j62113817035127_2_alg».proof.Proof.Finite
import proofs.«112731_j62113817035127_2_alg».proof.Proof.KernelRun
import proofs.«112731_j62113817035127_2_alg».proof.Proof.RefSpec
import Idealize.ShloMosaic.Adequacy
import Idealize.ShloMosaic.Init

noncomputable section

namespace Cert.Proof

open Idealize.ShloMosaic Idealize.SL.Sem Cert.AttnSpec Cert.LibAttentionRows

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end at the attention weights and the preconditioned output
    with the divided scores: the reference by its run read stage by stage, the kernel by its run read block by block
    and the equality of the two score forms on the real inputs the precondition gives. -/
theorem algebraic : Cert.algebraic_KernelIdeal_ReferenceIdeal := by
  intro m ρ m' ρ' hpre hagree
  refine ⟨fun c => out4 (scoreDivided Cert.ReferenceIdeal.RefSpec.σ) Cert.ReferenceIdeal.RefSpec.ε
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => attn4 (scoreDivided Cert.ReferenceIdeal.RefSpec.σ)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ?_) (Cert.KernelIdeal.Run.run m ρ)
    obtain ⟨hr0, hr1, -⟩ := Cert.Pre_finite_inputs.Finite.inputs_real _ _ _ (hpre c)
    exact ⟨(h c).1.trans (out4_scaled_eq_divided _ _ _ _ hr0 hr1),
      (h c).2.1.trans (attn4_scaled_eq_divided _ _ hr0 hr1), (h c).2.2⟩
  · refine (θ_run Cert.ReferenceIdeal.defs _ _).mono (fun _ h c => ?_)
      (Cert.ReferenceIdeal.Value.run (F := Ideal) m' ρ')
    refine ⟨(h c).1.trans ?_, (h c).2.1.trans ?_, (h c).2.2⟩
    · rw [Cert.ReferenceIdeal.Read.val_main_v20_eq, Cert.ReferenceIdeal.RefSpec.out_eq, (hagree c).1, (hagree c).2.1,
        (hagree c).2.2]
    · rw [Cert.ReferenceIdeal.Read.val_main_v14_eq, Cert.ReferenceIdeal.RefSpec.weights_eq, (hagree c).1,
        (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
